-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 31
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S1024x4096, .f32⟩
  | .hbm, ⟨21, _⟩ => ⟨S1024x4096, .bf16⟩
  | .hbm, ⟨22, _⟩ => ⟨S4096x1024, .f32⟩
  | .hbm, ⟨23, _⟩ => ⟨S1024x4096, .f32⟩
  | .hbm, ⟨24, _⟩ => ⟨S1024x4096, .bf16⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S16384x1024, .f32⟩
  | .hbm, ⟨30, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  transposes_S4096x1024_S1024x4096_1_0 : S4096x1024.Transposes [1, 0] S1024x4096
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S16384x4096, .f32⟩
  | .hbm, ⟨25, _⟩ => ⟨S1024x4096, .f32⟩
  | .hbm, ⟨26, _⟩ => ⟨S16384x4096, .f32⟩
  | .hbm, ⟨27, _⟩ => ⟨S16384x4096, .f32⟩
  | .hbm, ⟨28, _⟩ => ⟨S4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.FrameKernel.lean ====
/-
  The frame of this program: @main is ten host operations (four stackings by rows, two transposes, two changes of
  float format, one entrywise sum and one reshape), then ONE region over a grid of 64 points. The region's body loads
  its six input windows whole, computes, and stores its two output windows whole. Here: what the region finds in
  each buffer (`V`: the host operations folded over the launch memory; no host operation writes an argument), each
  window's block at a grid point, what the body leaves in each output window (the one store, read back as the
  stored payload), the body's triple, the proof data of the pipeline, the run of @main and, from it, that every
  argument array ends as it started. Everything is stated at any float instance.
-/
import proofs.«122057_j16243566313496_2_alg».proof.Proof.Gen.Kernel.Launch
import proofs.«122057_j16243566313496_2_alg».proof.Proof.Gen.Kernel.Skeleton
import proofs.«122057_j16243566313496_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the ten host operations folded over the launch memory. -/
abbrev V (c : Dev nD) (b : Ref sig .tc) : Buf (Elt F) ((c : Thread nD τ).loc b) :=
  StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, from a run to the pipeline's post -/

/-- For any proof data whose arrays are the region-entry contents, a run to the pipeline's post read at the
    argument arrays — a staged input ends at its array, an array no window stages is left as found, and no host
    operation wrote either — is the statement that every argument ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

abbrev rA : Rect S256x1024 := Rect.unit (s := S256x1024) ![0, 0] S256x1024.size inb_S256x1024_S256x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in each output window's buffer -/

/-- Window 6 (the new hidden state) after the body, from the six input blocks: its one store. -/
def out0_6 (x0 x1 x2 : Vec F S256x1024 .f32) (x3 x4 : Vec F S1024x4096 .bf16) (x5 : Vec F S1x4096 .f32) : Vec F S256x1024 .f32 :=
  View.canon [⟨rA, k0_pay3 (View.ld x0 rA) (View.ld x1 rA) (View.ld x2 rA) (View.ld x3 rW) (View.ld x4 rW) (View.ld x5 rB)⟩]

/-- Window 7 (the new cell state) after the body, from the six input blocks: its one store. -/
def out0_7 (x0 x1 x2 : Vec F S256x1024 .f32) (x3 x4 : Vec F S1024x4096 .bf16) (x5 : Vec F S1x4096 .f32) : Vec F S256x1024 .f32 :=
  View.canon [⟨rA, k0_pay2 (View.ld x0 rA) (View.ld x1 rA) (View.ld x2 rA) (View.ld x3 rW) (View.ld x4 rW) (View.ld x5 rB)⟩]

/-- The one store is of the whole buffer, so it covers it. -/
theorem cover_out (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 1000000 in
/-- The body on whole staging memrefs, the inputs' at contents `x0 … x5` and the outputs' at anything, runs to the
    continuation holding the inputs' as they were and each output's at its stored payload. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- The proof data of the pipeline on core `c`: the arrays as the region finds them; after the body at point `t`
    each input's buffer at its block and each output's at its stored payload of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data gives and every other unscoped buffer as the region found
    it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair execution of @main terminates, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Fr

end
-- ==== Proof.FrameKernelIdeal.lean ====
/-
  The frame of this program: @main is ten host operations (four stackings by rows, two transposes, two changes of
  float format, one entrywise sum and one reshape), then ONE region over a grid of 64 points. The region's body loads
  its six input windows whole, computes, and stores its two output windows whole. Here: what the region finds in
  each buffer (`V`: the host operations folded over the launch memory; no host operation writes an argument), each
  window's block at a grid point, what the body leaves in each output window (the one store, read back as the
  stored payload), the body's triple, the proof data of the pipeline, the run of @main and, from it, that every
  argument array ends as it started. Everything is stated at any float instance.
-/
import proofs.«122057_j16243566313496_2_alg».proof.Proof.Gen.KernelIdeal.Launch
import proofs.«122057_j16243566313496_2_alg».proof.Proof.Gen.KernelIdeal.Skeleton
import proofs.«122057_j16243566313496_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the ten host operations folded over the launch memory. -/
abbrev V (c : Dev nD) (b : Ref sig .tc) : Buf (Elt F) ((c : Thread nD τ).loc b) :=
  StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, from a run to the pipeline's post -/

/-- For any proof data whose arrays are the region-entry contents, a run to the pipeline's post read at the
    argument arrays — a staged input ends at its array, an array no window stages is left as found, and no host
    operation wrote either — is the statement that every argument ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

abbrev rA : Rect S256x1024 := Rect.unit (s := S256x1024) ![0, 0] S256x1024.size inb_S256x1024_S256x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in each output window's buffer -/

/-- Window 6 (the new hidden state) after the body, from the six input blocks: its one store. -/
def out0_6 (x0 x1 x2 : Vec F S256x1024 .f32) (x3 x4 : Vec F S1024x4096 .bf16) (x5 : Vec F S1x4096 .f32) : Vec F S256x1024 .f32 :=
  View.canon [⟨rA, k0_pay3 (View.ld x0 rA) (View.ld x1 rA) (View.ld x2 rA) (View.ld x3 rW) (View.ld x4 rW) (View.ld x5 rB)⟩]

/-- Window 7 (the new cell state) after the body, from the six input blocks: its one store. -/
def out0_7 (x0 x1 x2 : Vec F S256x1024 .f32) (x3 x4 : Vec F S1024x4096 .bf16) (x5 : Vec F S1x4096 .f32) : Vec F S256x1024 .f32 :=
  View.canon [⟨rA, k0_pay2 (View.ld x0 rA) (View.ld x1 rA) (View.ld x2 rA) (View.ld x3 rW) (View.ld x4 rW) (View.ld x5 rB)⟩]

/-- The one store is of the whole buffer, so it covers it. -/
theorem cover_out (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 1000000 in
/-- The body on whole staging memrefs, the inputs' at contents `x0 … x5` and the outputs' at anything, runs to the
    continuation holding the inputs' as they were and each output's at its stored payload. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- The proof data of the pipeline on core `c`: the arrays as the region finds them; after the body at point `t`
    each input's buffer at its block and each output's at its stored payload of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data gives and every other unscoped buffer as the region found
    it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair execution of @main terminates, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Fr

end
-- ==== Proof.Spec.lean ====
/-
  The cell, as formulas on the extended reals.

  One row of the batch: `x` and `h` are the row's input and hidden state (1024 entries each), `W` and `U` the two
  weight matrices with the four gates' columns side by side (1024 × 4096), `b` the summed bias (4096 entries). The
  pre-activation at column `n` is `(Σ_k x k · W k n + Σ_k h k · U k n) + b n`. Column `q` of the new cell state is
  `σ(pre at 1024 + q) · c + σ(pre at q) · tanh(pre at 3072 + q)`, and of the new hidden state
  `σ(pre at 2048 + q) · tanh(new cell state)`, with `σ t = 1 / (1 + e^(-t))`.
-/
import Idealize.ShloMosaic.Lib.ValueIdx
import Idealize.ShloMosaic.PureOps.Ideal

noncomputable section

namespace Cert.Lstm

open Idealize.ShloMosaic Idealize.ShloMosaic.ValueIdx

/-- Column `q` of the input gate's band. -/
abbrev colI (q : Fin 1024) : Fin 4096 := ⟨q.val, by have := q.isLt; omega⟩
/-- Column `q` of the forget gate's band. -/
abbrev colF (q : Fin 1024) : Fin 4096 := ⟨1024 + q.val, by have := q.isLt; omega⟩
/-- Column `q` of the output gate's band. -/
abbrev colO (q : Fin 1024) : Fin 4096 := ⟨2048 + q.val, by have := q.isLt; omega⟩
/-- Column `q` of the candidate's band. -/
abbrev colG (q : Fin 1024) : Fin 4096 := ⟨3072 + q.val, by have := q.isLt; omega⟩

/-- The pre-activation of one row at column `n`. -/
def pre (x h : Fin 1024 → EReal) (W U : Fin 1024 → Fin 4096 → EReal) (b : Fin 4096 → EReal) (n : Fin 4096) : EReal :=
  ((∑ k : Fin 1024, x k * W k n) + ∑ k : Fin 1024, h k * U k n) + b n

/-- Column `q` of the row's new cell state, `cq` being the old one there. -/
def cNew (x h : Fin 1024 → EReal) (cq : EReal) (W U : Fin 1024 → Fin 4096 → EReal) (b : Fin 4096 → EReal) (q : Fin 1024) : EReal :=
  Ideal.logistic (pre x h W U b (colF q)) * cq + Ideal.logistic (pre x h W U b (colI q)) * Ideal.tanh (pre x h W U b (colG q))

/-- Column `q` of the row's new hidden state. -/
def hNew (x h : Fin 1024 → EReal) (cq : EReal) (W U : Fin 1024 → Fin 4096 → EReal) (b : Fin 4096 → EReal) (q : Fin 1024) : EReal :=
  Ideal.logistic (pre x h W U b (colO q)) * Ideal.tanh (cNew x h cq W U b q)

/-- The whole new cell state, from the batch's arrays: entry `(r, q)` is the cell of row `r` at column `q`. -/
def cellArr (X H C : (⟨2, ![16384, 1024]⟩ : Shape).Idx → EReal) (W U : (⟨2, ![1024, 4096]⟩ : Shape).Idx → EReal)
    (b : Fin 4096 → EReal) : (⟨2, ![16384, 1024]⟩ : Shape).Idx → EReal := fun i =>
  cNew (fun k => X (ix2 (⟨(i 0).val, idx2_lt0 i⟩ : Fin 16384) k)) (fun k => H (ix2 (⟨(i 0).val, idx2_lt0 i⟩ : Fin 16384) k)) (C i)
    (fun k n => W (ix2 k n)) (fun k n => U (ix2 k n)) b ⟨(i 1).val, idx2_lt1 i⟩

/-- The whole new hidden state. -/
def hiddenArr (X H C : (⟨2, ![16384, 1024]⟩ : Shape).Idx → EReal) (W U : (⟨2, ![1024, 4096]⟩ : Shape).Idx → EReal)
    (b : Fin 4096 → EReal) : (⟨2, ![16384, 1024]⟩ : Shape).Idx → EReal := fun i =>
  hNew (fun k => X (ix2 (⟨(i 0).val, idx2_lt0 i⟩ : Fin 16384) k)) (fun k => H (ix2 (⟨(i 0).val, idx2_lt0 i⟩ : Fin 16384) k)) (C i)
    (fun k n => W (ix2 k n)) (fun k n => U (ix2 k n)) b ⟨(i 1).val, idx2_lt1 i⟩

end Cert.Lstm

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«122057_j16243566313496_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.KernelCell.lean ====
/-
  The body's three stored and intermediate values read at an index, at the extended reals: the pre-activation
  block (two products into zero, summed, plus the bias row repeated down the rows) is `pre` of the block's rows; the
  new cell state's block and the new hidden state's block are `cNew` and `hNew` there. A change of float format is
  the identity, a cast to the same shape is the identity, a band of columns cut at offset `o` reads column `o + q`.
-/
import proofs.«122057_j16243566313496_2_alg».proof.Proof.Gen.KernelIdeal.Skeleton
import proofs.«122057_j16243566313496_2_alg».proof.Proof.Spec
import proofs.«122057_j16243566313496_2_alg».proof.Proof.LibMatmulRows
import Idealize.ShloMosaic.Lib.ValueLayout
import Idealize.ShloMosaic.Lib.Pipeline.Value

noncomputable section

namespace Cert.KernelIdeal.Cell

open Cert.KernelIdeal Cert.KernelIdeal.Gen Cert.Lstm Idealize.ShloMosaic Idealize.ShloMosaic.ValueIdx

/-- The pre-activation block at row `p`, column `n`. -/
theorem pay1_apply (x0 x1 : FVec Ideal S256x1024 .f32) (w u : FVec Ideal S1024x4096 .bf16) (bv : FVec Ideal S1x4096 .f32)
    (p : Fin 256) (n : Fin 4096) :
    k0_pay1 (F := Ideal) x0 x1 w u bv (ix2 p n)
      = pre (fun k => x0 (ix2 p k)) (fun k => x1 (ix2 p k)) (fun k n => w (ix2 k n)) (fun k n => u (ix2 k n))
          (fun n => bv (ix2 (0 : Fin 1) n)) n := by
  unfold k0_pay1 pre
  refine congrArg₂ (· + ·) (congrArg₂ (· + ·) ?_ ?_) ?_
  · refine (Cert.LibMatmulRows.matmul_rows_apply dot_S256x1024_S1024x4096_S256x4096_1_0_0_1_n_n rfl rfl rfl rfl rfl rfl _ _ p n).trans ?_
    exact Finset.sum_congr rfl fun k _ => congrArg (fun z => x0 (ix2 p k) * z) (congrFun (shapeCast_self w _) (ix2 k n))
  · refine (Cert.LibMatmulRows.matmul_rows_apply dot_S256x1024_S1024x4096_S256x4096_1_0_0_1_n_n rfl rfl rfl rfl rfl rfl _ _ p n).trans ?_
    exact Finset.sum_congr rfl fun k _ => congrArg (fun z => x1 (ix2 p k) * z) (congrFun (shapeCast_self u _) (ix2 k n))
  · exact (broadcastTo_1b_ab_apply _ _ p n).trans (congrFun (shapeCast_self bv _) (ix2 (0 : Fin 1) n))

/-- The new cell state's block at row `p`, column `q`. -/
theorem pay2_apply (x0 x1 x2 : FVec Ideal S256x1024 .f32) (w u : FVec Ideal S1024x4096 .bf16) (bv : FVec Ideal S1x4096 .f32)
    (p : Fin 256) (q : Fin 1024) :
    k0_pay2 (F := Ideal) x0 x1 x2 w u bv (ix2 p q)
      = cNew (fun k => x0 (ix2 p k)) (fun k => x1 (ix2 p k)) (x2 (ix2 p q)) (fun k n => w (ix2 k n)) (fun k n => u (ix2 k n))
          (fun n => bv (ix2 (0 : Fin 1) n)) q := by
  unfold k0_pay2 cNew
  refine congrArg₂ (· + ·) (congrArg₂ (· * ·) (congrArg Ideal.logistic ?_) rfl)
    (congrArg₂ (· * ·) (congrArg Ideal.logistic ?_) (congrArg Ideal.tanh ?_))
  · exact (slice2_axis1_apply 1024 _ _ p q (colF q) rfl).trans (pay1_apply x0 x1 w u bv p (colF q))
  · exact (slice2_axis1_apply 0 _ _ p q (colI q) (Nat.zero_add _).symm).trans (pay1_apply x0 x1 w u bv p (colI q))
  · exact (slice2_axis1_apply 3072 _ _ p q (colG q) rfl).trans (pay1_apply x0 x1 w u bv p (colG q))

/-- The new hidden state's block at row `p`, column `q`. -/
theorem pay3_apply (x0 x1 x2 : FVec Ideal S256x1024 .f32) (w u : FVec Ideal S1024x4096 .bf16) (bv : FVec Ideal S1x4096 .f32)
    (p : Fin 256) (q : Fin 1024) :
    k0_pay3 (F := Ideal) x0 x1 x2 w u bv (ix2 p q)
      = hNew (fun k => x0 (ix2 p k)) (fun k => x1 (ix2 p k)) (x2 (ix2 p q)) (fun k n => w (ix2 k n)) (fun k n => u (ix2 k n))
          (fun n => bv (ix2 (0 : Fin 1) n)) q := by
  unfold k0_pay3 hNew
  refine congrArg₂ (· * ·) (congrArg Ideal.logistic ?_) (congrArg Ideal.tanh (pay2_apply x0 x1 x2 w u bv p q))
  exact (slice2_axis1_apply 2048 _ _ p q (colO q) rfl).trans (pay1_apply x0 x1 w u bv p (colO q))

end Cert.KernelIdeal.Cell

end
-- ==== Proof.KernelValue.lean ====
/-
  The region's two result arrays as functions of the argument arrays, at the extended reals.

  The grid's point `t` handles rows `256 t … 256 t + 255` of the batch: it fetches those rows of the three batch
  arrays, holds the two weight matrices and the bias row whole, and writes back those rows of the two results. What it
  writes back is the cell's formulas of those rows (the stored payloads read at an index), the 64 blocks tile the
  16384 rows, so each result array is one function of what the region finds. What the region finds in the three
  buffers the host operations wrote is read off the operations: the stacked weights transposed (their change of
  float format the identity), and the two stacked biases summed, laid as one row.
-/
import proofs.«122057_j16243566313496_2_alg».proof.Proof.FrameKernelIdeal
import proofs.«122057_j16243566313496_2_alg».proof.Proof.KernelCell
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr Cert.KernelIdeal.Cell Cert.Lstm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Row `p` of point `t`'s block is row `256 t + p` of the batch. -/
def row (t : Fin cfg0.N) (p : Fin 256) : Fin 16384 :=
  ⟨256 * t.val + p.val, by have h : t.val < 64 := N_0 ▸ t.isLt; have := p.isLt; omega⟩

/-! ## The printed index maps, decided over the grid -/

theorem idx_rows0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_rows1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_rows2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_whole3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_whole4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_whole5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_rows6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx_rows7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-! ## The input windows' blocks -/

/-- Window 0's block at point `t` is rows `256 t … 256 t + 255` of its array. -/
theorem rd0 (c : Dev nD) (t : Fin cfg0.N) (p : Fin 256) (k : Fin 1024) :
    iblk m c 0 t (ix2 p k) = V m c main_arg0 (ix2 (row t p) k) := by
  show V m c main_arg0 (((cfg0.win 0).blk t).view.emb (ix2 p k)) = V m c main_arg0 (ix2 (row t p) k)
  refine congrArg _ (funext fun a => Fin.ext ?_)
  obtain ⟨e, e'⟩ := idx_rows0 t
  match a with
  | ⟨0, _⟩ => show win0_0.index t (0 : Fin 2) * 256 + 1 * p.val = 256 * t.val + p.val; rw [e]; omega
  | ⟨1, _⟩ => show win0_0.index t (1 : Fin 2) * 1024 + 1 * k.val = k.val; rw [e']; omega

/-- Window 1's block at point `t` is rows `256 t … 256 t + 255` of its array. -/
theorem rd1 (c : Dev nD) (t : Fin cfg0.N) (p : Fin 256) (k : Fin 1024) :
    iblk m c 1 t (ix2 p k) = V m c main_arg1 (ix2 (row t p) k) := by
  show V m c main_arg1 (((cfg0.win 1).blk t).view.emb (ix2 p k)) = V m c main_arg1 (ix2 (row t p) k)
  refine congrArg _ (funext fun a => Fin.ext ?_)
  obtain ⟨e, e'⟩ := idx_rows1 t
  match a with
  | ⟨0, _⟩ => show win0_1.index t (0 : Fin 2) * 256 + 1 * p.val = 256 * t.val + p.val; rw [e]; omega
  | ⟨1, _⟩ => show win0_1.index t (1 : Fin 2) * 1024 + 1 * k.val = k.val; rw [e']; omega

/-- Window 2's block at point `t` is rows `256 t … 256 t + 255` of its array. -/
theorem rd2 (c : Dev nD) (t : Fin cfg0.N) (p : Fin 256) (k : Fin 1024) :
    iblk m c 2 t (ix2 p k) = V m c main_arg2 (ix2 (row t p) k) := by
  show V m c main_arg2 (((cfg0.win 2).blk t).view.emb (ix2 p k)) = V m c main_arg2 (ix2 (row t p) k)
  refine congrArg _ (funext fun a => Fin.ext ?_)
  obtain ⟨e, e'⟩ := idx_rows2 t
  match a with
  | ⟨0, _⟩ => show win0_2.index t (0 : Fin 2) * 256 + 1 * p.val = 256 * t.val + p.val; rw [e]; omega
  | ⟨1, _⟩ => show win0_2.index t (1 : Fin 2) * 1024 + 1 * k.val = k.val; rw [e']; omega

/-- Window 3's block at every point is its whole array. -/
theorem rd3 (c : Dev nD) (t : Fin cfg0.N) (k : Fin 1024) (n : Fin 4096) :
    iblk m c 3 t (ix2 k n) = V m c main_v2 (ix2 k n) := by
  show V m c main_v2 (((cfg0.win 3).blk t).view.emb (ix2 k n)) = V m c main_v2 (ix2 k n)
  refine congrArg _ (funext fun a => Fin.ext ?_)
  obtain ⟨e, e'⟩ := idx_whole3 t
  match a with
  | ⟨0, _⟩ => show win0_3.index t (0 : Fin 2) * 1024 + 1 * k.val = k.val; rw [e]; omega
  | ⟨1, _⟩ => show win0_3.index t (1 : Fin 2) * 4096 + 1 * n.val = n.val; rw [e']; omega

/-- Window 4's block at every point is its whole array. -/
theorem rd4 (c : Dev nD) (t : Fin cfg0.N) (k : Fin 1024) (n : Fin 4096) :
    iblk m c 4 t (ix2 k n) = V m c main_v5 (ix2 k n) := by
  show V m c main_v5 (((cfg0.win 4).blk t).view.emb (ix2 k n)) = V m c main_v5 (ix2 k n)
  refine congrArg _ (funext fun a => Fin.ext ?_)
  obtain ⟨e, e'⟩ := idx_whole4 t
  match a with
  | ⟨0, _⟩ => show win0_4.index t (0 : Fin 2) * 1024 + 1 * k.val = k.val; rw [e]; omega
  | ⟨1, _⟩ => show win0_4.index t (1 : Fin 2) * 4096 + 1 * n.val = n.val; rw [e']; omega

/-- Window 5's block at every point is its whole array. -/
theorem rd5 (c : Dev nD) (t : Fin cfg0.N) (k : Fin 1) (n : Fin 4096) :
    iblk m c 5 t (ix2 k n) = V m c main_v9 (ix2 k n) := by
  show V m c main_v9 (((cfg0.win 5).blk t).view.emb (ix2 k n)) = V m c main_v9 (ix2 k n)
  refine congrArg _ (funext fun a => Fin.ext ?_)
  obtain ⟨e, e'⟩ := idx_whole5 t
  match a with
  | ⟨0, _⟩ => show win0_5.index t (0 : Fin 2) * 1 + 1 * k.val = k.val; rw [e]; omega
  | ⟨1, _⟩ => show win0_5.index t (1 : Fin 2) * 4096 + 1 * n.val = n.val; rw [e']; omega

/-! ## The new hidden state (output window 6) -/

/-- An element of output window 6's block at point `t` sits at row `256 t + p` of its array. -/
theorem emb6 (t : Fin cfg0.N) (p : Fin 256) (q : Fin 1024) :
    ((cfg0.win 6).blk t).view.emb (ix2 p q) = ix2 (row t p) q := by
  refine funext fun a => Fin.ext ?_
  obtain ⟨e, e'⟩ := idx_rows6 t
  match a with
  | ⟨0, _⟩ => show win0_6.index t (0 : Fin 2) * 256 + 1 * p.val = 256 * t.val + p.val; rw [e]; omega
  | ⟨1, _⟩ => show win0_6.index t (1 : Fin 2) * 1024 + 1 * q.val = q.val; rw [e']; omega

/-- What point `t` writes back to the hidden-state array is block `t` of `hiddenArr` of the arrays the region finds. -/
theorem flushed6_eq (c : Dev nD) (t : Fin cfg0.N) :
    (dats m 0 c).flushed 6 t = ((cfg0.win 6).blk t).view.read (Elt Ideal) (hiddenArr (V m c main_arg0) (V m c main_arg1) (V m c main_arg2) (V m c main_v2) (V m c main_v5) (fun n => V m c main_v9 (ix2 (0 : Fin 1) n))) := by
  show (cfg0.win 6).cut (grid0.coords t) ((dats m 0 c).after 6 t) = _
  rw [after0_6]
  unfold out0_6
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  show k0_pay3 (F := Ideal) (iblk m c 0 t) (iblk m c 1 t) (iblk m c 2 t) (iblk m c 3 t) (iblk m c 4 t) (iblk m c 5 t) (ix2 p q)
    = hiddenArr (V m c main_arg0) (V m c main_arg1) (V m c main_arg2) (V m c main_v2) (V m c main_v5) (fun n => V m c main_v9 (ix2 (0 : Fin 1) n)) (((cfg0.win 6).blk t).view.emb (ix2 p q))
  rw [emb6]
  refine (pay3_apply (iblk m c 0 t) (iblk m c 1 t) (iblk m c 2 t) (iblk m c 3 t) (iblk m c 4 t) (iblk m c 5 t) p q).trans ?_
  simp only [rd0, rd1, rd2, rd3, rd4, rd5]
  rfl

/-- An index of the array is in point `t`'s block iff each coordinate is in the block's range on its axis. -/
theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

/-- Every row of the array lies in the block of the point `row / 256`. -/
theorem cover6 (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 64 := N_0
  have hlt : (i 0).val / 256 < cfg0.N := by rw [hN]; omega
  obtain ⟨e, e'⟩ := idx_rows6 ⟨(i 0).val / 256, hlt⟩
  refine ⟨⟨(i 0).val / 256, hlt⟩, flush0_6 _, ?_⟩
  rw [mem_blk6]
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    rw [e]; show (i 0).val / 256 * 256 ≤ (i 0).val ∧ (i 0).val < (i 0).val / 256 * 256 + 256; omega
  | ⟨1, _⟩ =>
    show win0_6.index ⟨(i 0).val / 256, hlt⟩ (1 : Fin 2) * 1024 ≤ (i 1).val ∧ (i 1).val < win0_6.index ⟨(i 0).val / 256, hlt⟩ (1 : Fin 2) * 1024 + 1024
    rw [e']; omega

/-- The hidden-state array after the run, as one function of the arrays the region finds. -/
theorem final6V (c : Dev nD) : (dats m 0 c).arrAt 6 cfg0.N = hiddenArr (V m c main_arg0) (V m c main_arg1) (V m c main_arg2) (V m c main_v2) (V m c main_v5) (fun n => V m c main_v9 (ix2 (0 : Fin 1) n)) :=
  (dats m 0 c).arrAt_eq_of_cover 6 _ (fun t _ => flushed6_eq m c t) cover6

/-! ## The new cell state (output window 7) -/

/-- An element of output window 7's block at point `t` sits at row `256 t + p` of its array. -/
theorem emb7 (t : Fin cfg0.N) (p : Fin 256) (q : Fin 1024) :
    ((cfg0.win 7).blk t).view.emb (ix2 p q) = ix2 (row t p) q := by
  refine funext fun a => Fin.ext ?_
  obtain ⟨e, e'⟩ := idx_rows7 t
  match a with
  | ⟨0, _⟩ => show win0_7.index t (0 : Fin 2) * 256 + 1 * p.val = 256 * t.val + p.val; rw [e]; omega
  | ⟨1, _⟩ => show win0_7.index t (1 : Fin 2) * 1024 + 1 * q.val = q.val; rw [e']; omega

/-- What point `t` writes back to the cell-state array is block `t` of `cellArr` of the arrays the region finds. -/
theorem flushed7_eq (c : Dev nD) (t : Fin cfg0.N) :
    (dats m 0 c).flushed 7 t = ((cfg0.win 7).blk t).view.read (Elt Ideal) (cellArr (V m c main_arg0) (V m c main_arg1) (V m c main_arg2) (V m c main_v2) (V m c main_v5) (fun n => V m c main_v9 (ix2 (0 : Fin 1) n))) := by
  show (cfg0.win 7).cut (grid0.coords t) ((dats m 0 c).after 7 t) = _
  rw [after0_7]
  unfold out0_7
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  show k0_pay2 (F := Ideal) (iblk m c 0 t) (iblk m c 1 t) (iblk m c 2 t) (iblk m c 3 t) (iblk m c 4 t) (iblk m c 5 t) (ix2 p q)
    = cellArr (V m c main_arg0) (V m c main_arg1) (V m c main_arg2) (V m c main_v2) (V m c main_v5) (fun n => V m c main_v9 (ix2 (0 : Fin 1) n)) (((cfg0.win 7).blk t).view.emb (ix2 p q))
  rw [emb7]
  refine (pay2_apply (iblk m c 0 t) (iblk m c 1 t) (iblk m c 2 t) (iblk m c 3 t) (iblk m c 4 t) (iblk m c 5 t) p q).trans ?_
  simp only [rd0, rd1, rd2, rd3, rd4, rd5]
  rfl

/-- An index of the array is in point `t`'s block iff each coordinate is in the block's range on its axis. -/
theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl

/-- Every row of the array lies in the block of the point `row / 256`. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 64 := N_0
  have hlt : (i 0).val / 256 < cfg0.N := by rw [hN]; omega
  obtain ⟨e, e'⟩ := idx_rows7 ⟨(i 0).val / 256, hlt⟩
  refine ⟨⟨(i 0).val / 256, hlt⟩, flush0_7 _, ?_⟩
  rw [mem_blk7]
  intro a
  match a with
  | ⟨0, _⟩ =>
    show win0_7.index ⟨(i 0).val / 256, hlt⟩ (0 : Fin 2) * 256 ≤ (i 0).val ∧ (i 0).val < win0_7.index ⟨(i 0).val / 256, hlt⟩ (0 : Fin 2) * 256 + 256
    rw [e]; show (i 0).val / 256 * 256 ≤ (i 0).val ∧ (i 0).val < (i 0).val / 256 * 256 + 256; omega
  | ⟨1, _⟩ =>
    show win0_7.index ⟨(i 0).val / 256, hlt⟩ (1 : Fin 2) * 1024 ≤ (i 1).val ∧ (i 1).val < win0_7.index ⟨(i 0).val / 256, hlt⟩ (1 : Fin 2) * 1024 + 1024
    rw [e']; omega

/-- The cell-state array after the run, as one function of the arrays the region finds. -/
theorem final7V (c : Dev nD) : (dats m 0 c).arrAt 7 cfg0.N = cellArr (V m c main_arg0) (V m c main_arg1) (V m c main_arg2) (V m c main_v2) (V m c main_v5) (fun n => V m c main_v9 (ix2 (0 : Fin 1) n)) :=
  (dats m 0 c).arrAt_eq_of_cover 7 _ (fun t _ => flushed7_eq m c t) cover7

/-! ## What the host operations left in the three buffers the region reads -/

/-- The four input-path weight matrices stacked by rows, transposed. -/
def WT (c : Dev nD) : S1024x4096.Idx → EReal :=
  transpose S1024x4096 [1, 0] (concatenate S4096x1024 0 [⟨S1024x1024, m ((c : Thread nD τ).loc main_arg3)⟩, ⟨S1024x1024, m ((c : Thread nD τ).loc main_arg7)⟩, ⟨S1024x1024, m ((c : Thread nD τ).loc main_arg11)⟩, ⟨S1024x1024, m ((c : Thread nD τ).loc main_arg15)⟩] concatenates_S1024x1024_S1024x1024_S1024x1024_S1024x1024_S4096x1024_d0) transposes_S4096x1024_S1024x4096_1_0

/-- The four hidden-path weight matrices stacked by rows, transposed. -/
def UT (c : Dev nD) : S1024x4096.Idx → EReal :=
  transpose S1024x4096 [1, 0] (concatenate S4096x1024 0 [⟨S1024x1024, m ((c : Thread nD τ).loc main_arg5)⟩, ⟨S1024x1024, m ((c : Thread nD τ).loc main_arg9)⟩, ⟨S1024x1024, m ((c : Thread nD τ).loc main_arg13)⟩, ⟨S1024x1024, m ((c : Thread nD τ).loc main_arg17)⟩] concatenates_S1024x1024_S1024x1024_S1024x1024_S1024x1024_S4096x1024_d0) transposes_S4096x1024_S1024x4096_1_0

/-- The two stacked bias vectors, summed. -/
def bsum (c : Dev nD) : S4096.Idx → EReal :=
  addf (F := Ideal) (φ := .f32) (concatenate S4096 0 [⟨S1024, m ((c : Thread nD τ).loc main_arg4)⟩, ⟨S1024, m ((c : Thread nD τ).loc main_arg8)⟩, ⟨S1024, m ((c : Thread nD τ).loc main_arg12)⟩, ⟨S1024, m ((c : Thread nD τ).loc main_arg16)⟩] concatenates_S1024_S1024_S1024_S1024_S4096_d0) (concatenate S4096 0 [⟨S1024, m ((c : Thread nD τ).loc main_arg6)⟩, ⟨S1024, m ((c : Thread nD τ).loc main_arg10)⟩, ⟨S1024, m ((c : Thread nD τ).loc main_arg14)⟩, ⟨S1024, m ((c : Thread nD τ).loc main_arg18)⟩] concatenates_S1024_S1024_S1024_S1024_S4096_d0)

theorem V_v2 (c : Dev nD) : (V m c main_v2 : S1024x4096.Idx → EReal) = WT m c := by
  dsimp only [V, hostOps0]; after_results; rfl

theorem V_v5 (c : Dev nD) : (V m c main_v5 : S1024x4096.Idx → EReal) = UT m c := by
  dsimp only [V, hostOps0]; after_results; rfl

theorem V_v9 (c : Dev nD) : (V m c main_v9 : S1x4096.Idx → EReal) = shapeCast S1x4096 (bsum m c) shapeCasts_S4096_S1x4096 := by
  dsimp only [V, hostOps0]; after_results; rfl

/-- The bias row at column `n` is the summed bias at `n`. -/
theorem V_v9_apply (c : Dev nD) (n : Fin 4096) : V m c main_v9 (ix2 (0 : Fin 1) n) = bsum m c (ix1 n) := by
  rw [V_v9]
  exact shapeCast_a_1a_apply (bsum m c) shapeCasts_S4096_S1x4096 0 n

/-! ## The two results, from the argument arrays -/

theorem final6 (c : Dev nD) : (dats m 0 c).arrAt 6 cfg0.N
    = hiddenArr (m ((c : Thread nD τ).loc main_arg0)) (m ((c : Thread nD τ).loc main_arg1)) (m ((c : Thread nD τ).loc main_arg2)) (WT m c) (UT m c) (fun n => bsum m c (ix1 n)) := by
  rw [final6V, V_main_arg0, V_main_arg1, V_main_arg2, V_v2, V_v5]
  exact congrArg (hiddenArr _ _ _ _ _) (funext fun n => V_v9_apply m c n)

theorem final7 (c : Dev nD) : (dats m 0 c).arrAt 7 cfg0.N
    = cellArr (m ((c : Thread nD τ).loc main_arg0)) (m ((c : Thread nD τ).loc main_arg1)) (m ((c : Thread nD τ).loc main_arg2)) (WT m c) (UT m c) (fun n => bsum m c (ix1 n)) := by
  rw [final7V, V_main_arg0, V_main_arg1, V_main_arg2, V_v2, V_v5]
  exact congrArg (cellArr _ _ _ _ _) (funext fun n => V_v9_apply m c n)

/-! ## The run, with the two results named -/

/-- Every weakly fair execution of @main terminates with the new hidden state and the new cell state at the cell's
    formulas of the argument arrays, the arguments unchanged. -/
theorem run : θ_run defs (onTc (τ := τ) (main (F := Ideal))) ⟨m, fun _ => 0, ρ⟩ fun r => ∀ c : Dev nD,
      r.2.mem ((c.tc : Thread nD τ).loc main_v10_0)
        = hiddenArr (m ((c.tc : Thread nD τ).loc main_arg0)) (m ((c.tc : Thread nD τ).loc main_arg1)) (m ((c.tc : Thread nD τ).loc main_arg2)) (WT m c) (UT m c) (fun n => bsum m c (ix1 n))
      ∧ r.2.mem ((c.tc : Thread nD τ).loc main_v10_1)
        = cellArr (m ((c.tc : Thread nD τ).loc main_arg0)) (m ((c.tc : Thread nD τ).loc main_arg1)) (m ((c.tc : Thread nD τ).loc main_arg2)) (WT m c) (UT m c) (fun n => bsum m c (ix1 n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.Val

end
-- ==== Proof.RefValue.lean ====
/-
  The reference read at an index, at the extended reals. Its pre-activation array is `pre` of the batch's rows with
  the stacked and transposed weights and the summed bias (the two products as sums over the shared axis, the bias
  vector laid along the columns and repeated down the rows); its three gates are `1 / (1 + e^(-t))` of bands of
  that array, which is the one function the cell's formulas call the logistic; so its two results are the arrays
  `cellArr` and `hiddenArr` of its arguments.
-/
import proofs.«122057_j16243566313496_2_alg».proof.Proof.Gen.ReferenceIdeal.Read
import proofs.«122057_j16243566313496_2_alg».proof.Proof.Spec
import Idealize.ShloMosaic.Lib.IdealHost

noncomputable section

namespace Cert.ReferenceIdeal.RefValue

open Cert.ReferenceIdeal Cert.ReferenceIdeal.Read Cert.Lstm Idealize.ShloMosaic Idealize.ShloMosaic.ValueIdx

variable (x0 x1 x2 : FVec Ideal S16384x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32)

/-- The pre-activation array at row `r`, column `n`. -/
theorem v12_apply (r : Fin 16384) (n : Fin 4096) :
    val_main_v12 (F := Ideal) x0 x1 x3 x4 x5 x6 x7 x8 x9 x10 x11 x12 x13 x14 x15 x16 x17 x18 (ix2 r n) = pre (fun k => x0 (ix2 r k)) (fun k => x1 (ix2 r k)) (fun k n => val_main_v4 (F := Ideal) x3 x7 x11 x15 (ix2 k n)) (fun k n => val_main_v6 (F := Ideal) x5 x9 x13 x17 (ix2 k n)) (fun n => val_main_v9 (F := Ideal) x4 x6 x8 x10 x12 x14 x16 x18 (ix1 n)) n := by
  rw [val_main_v12_apply, val_main_v8_apply, val_main_v5_apply, val_main_v7_apply, val_main_v11_apply, val_main_v10_apply]
  have e1 : ∀ k : Fin 1024, lidx_main_v5 (ix2 r n) k = ix2 r k := fun k => funext fun a => Fin.ext (by
    match a with
    | ⟨0, _⟩ => rfl
    | ⟨1, _⟩ => rfl)
  have e2 : ∀ k : Fin 1024, ridx_main_v5 (ix2 r n) k = ix2 k n := fun k => funext fun a => Fin.ext (by
    match a with
    | ⟨0, _⟩ => rfl
    | ⟨1, _⟩ => rfl)
  have e3 : ∀ k : Fin 1024, lidx_main_v7 (ix2 r n) k = ix2 r k := fun k => funext fun a => Fin.ext (by
    match a with
    | ⟨0, _⟩ => rfl
    | ⟨1, _⟩ => rfl)
  have e4 : ∀ k : Fin 1024, ridx_main_v7 (ix2 r n) k = ix2 k n := fun k => funext fun a => Fin.ext (by
    match a with
    | ⟨0, _⟩ => rfl
    | ⟨1, _⟩ => rfl)
  have e5 : idx_main_v10 (idx_main_v11 (ix2 r n)) = ix1 n := funext fun a => Fin.ext (by
    match a with
    | ⟨0, _⟩ => rfl)
  simp only [e1, e2, e3, e4, e5]
  rfl

theorem idx_v13 (r : Fin 16384) (q : Fin 1024) : idx_main_v13 (ix2 r q) = ix2 r (colI q) :=
  funext fun a => Fin.ext (by
    match a with
    | ⟨0, _⟩ => rfl
    | ⟨1, _⟩ => rfl)

theorem idx_v14 (r : Fin 16384) (q : Fin 1024) : idx_main_v14 (ix2 r q) = ix2 r (colF q) :=
  funext fun a => Fin.ext (by
    match a with
    | ⟨0, _⟩ => rfl
    | ⟨1, _⟩ => rfl)

theorem idx_v15 (r : Fin 16384) (q : Fin 1024) : idx_main_v15 (ix2 r q) = ix2 r (colO q) :=
  funext fun a => Fin.ext (by
    match a with
    | ⟨0, _⟩ => rfl
    | ⟨1, _⟩ => rfl)

theorem idx_v16 (r : Fin 16384) (q : Fin 1024) : idx_main_v16 (ix2 r q) = ix2 r (colG q) :=
  funext fun a => Fin.ext (by
    match a with
    | ⟨0, _⟩ => rfl
    | ⟨1, _⟩ => rfl)

/-- The input gate: one over one plus the exponential of minus the pre-activation in its band of columns. -/
theorem v22_apply (r : Fin 16384) (q : Fin 1024) :
    val_main_v22 (F := Ideal) x0 x1 x3 x4 x5 x6 x7 x8 x9 x10 x11 x12 x13 x14 x15 x16 x17 x18 (ix2 r q) = Ideal.logistic (pre (fun k => x0 (ix2 r k)) (fun k => x1 (ix2 r k)) (fun k n => val_main_v4 (F := Ideal) x3 x7 x11 x15 (ix2 k n)) (fun k n => val_main_v6 (F := Ideal) x5 x9 x13 x17 (ix2 k n)) (fun n => val_main_v9 (F := Ideal) x4 x6 x8 x10 x12 x14 x16 x18 (ix1 n)) (colI q)) := by
  rw [val_main_v22_apply, val_main_v21_apply, val_main_cst_0_apply, val_main_v20_apply, val_main_v19_apply, val_main_cst_apply,
    val_main_v18_apply, val_main_v17_apply, val_main_v13_apply, idx_v13, v12_apply]
  simp only [Ideal.ofBits_def, Ideal.ofBits_one_f32]
  rfl

/-- The forget gate: one over one plus the exponential of minus the pre-activation in its band of columns. -/
theorem v28_apply (r : Fin 16384) (q : Fin 1024) :
    val_main_v28 (F := Ideal) x0 x1 x3 x4 x5 x6 x7 x8 x9 x10 x11 x12 x13 x14 x15 x16 x17 x18 (ix2 r q) = Ideal.logistic (pre (fun k => x0 (ix2 r k)) (fun k => x1 (ix2 r k)) (fun k n => val_main_v4 (F := Ideal) x3 x7 x11 x15 (ix2 k n)) (fun k n => val_main_v6 (F := Ideal) x5 x9 x13 x17 (ix2 k n)) (fun n => val_main_v9 (F := Ideal) x4 x6 x8 x10 x12 x14 x16 x18 (ix1 n)) (colF q)) := by
  rw [val_main_v28_apply, val_main_v27_apply, val_main_cst_2_apply, val_main_v26_apply, val_main_v25_apply, val_main_cst_1_apply,
    val_main_v24_apply, val_main_v23_apply, val_main_v14_apply, idx_v14, v12_apply]
  simp only [Ideal.ofBits_def, Ideal.ofBits_one_f32]
  rfl

/-- The output gate: one over one plus the exponential of minus the pre-activation in its band of columns. -/
theorem v34_apply (r : Fin 16384) (q : Fin 1024) :
    val_main_v34 (F := Ideal) x0 x1 x3 x4 x5 x6 x7 x8 x9 x10 x11 x12 x13 x14 x15 x16 x17 x18 (ix2 r q) = Ideal.logistic (pre (fun k => x0 (ix2 r k)) (fun k => x1 (ix2 r k)) (fun k n => val_main_v4 (F := Ideal) x3 x7 x11 x15 (ix2 k n)) (fun k n => val_main_v6 (F := Ideal) x5 x9 x13 x17 (ix2 k n)) (fun n => val_main_v9 (F := Ideal) x4 x6 x8 x10 x12 x14 x16 x18 (ix1 n)) (colO q)) := by
  rw [val_main_v34_apply, val_main_v33_apply, val_main_cst_4_apply, val_main_v32_apply, val_main_v31_apply, val_main_cst_3_apply,
    val_main_v30_apply, val_main_v29_apply, val_main_v15_apply, idx_v15, v12_apply]
  simp only [Ideal.ofBits_def, Ideal.ofBits_one_f32]
  rfl

/-- The new cell state at row `r`, column `q`. -/
theorem v38_apply (r : Fin 16384) (q : Fin 1024) :
    val_main_v38 (F := Ideal) x0 x1 x2 x3 x4 x5 x6 x7 x8 x9 x10 x11 x12 x13 x14 x15 x16 x17 x18 (ix2 r q)
      = cNew (fun k => x0 (ix2 r k)) (fun k => x1 (ix2 r k)) (x2 (ix2 r q)) (fun k n => val_main_v4 (F := Ideal) x3 x7 x11 x15 (ix2 k n))
          (fun k n => val_main_v6 (F := Ideal) x5 x9 x13 x17 (ix2 k n)) (fun n => val_main_v9 (F := Ideal) x4 x6 x8 x10 x12 x14 x16 x18 (ix1 n)) q := by
  rw [val_main_v38_apply, val_main_v36_apply, val_main_v37_apply, val_main_v35_apply, val_main_v16_apply, idx_v16, v12_apply,
    v28_apply, v22_apply]
  rfl

/-- The new hidden state at row `r`, column `q`. -/
theorem v40_apply (r : Fin 16384) (q : Fin 1024) :
    val_main_v40 (F := Ideal) x0 x1 x2 x3 x4 x5 x6 x7 x8 x9 x10 x11 x12 x13 x14 x15 x16 x17 x18 (ix2 r q)
      = hNew (fun k => x0 (ix2 r k)) (fun k => x1 (ix2 r k)) (x2 (ix2 r q)) (fun k n => val_main_v4 (F := Ideal) x3 x7 x11 x15 (ix2 k n))
          (fun k n => val_main_v6 (F := Ideal) x5 x9 x13 x17 (ix2 k n)) (fun n => val_main_v9 (F := Ideal) x4 x6 x8 x10 x12 x14 x16 x18 (ix1 n)) q := by
  rw [val_main_v40_apply, val_main_v39_apply, v38_apply, v34_apply]
  rfl

/-- The reference's second result is the cell-state array of its arguments. -/
theorem cell_eq :
    val_main_v38 (F := Ideal) x0 x1 x2 x3 x4 x5 x6 x7 x8 x9 x10 x11 x12 x13 x14 x15 x16 x17 x18
      = cellArr x0 x1 x2 (val_main_v4 (F := Ideal) x3 x7 x11 x15) (val_main_v6 (F := Ideal) x5 x9 x13 x17) (fun n => val_main_v9 (F := Ideal) x4 x6 x8 x10 x12 x14 x16 x18 (ix1 n)) := by
  funext i
  obtain ⟨r, q, rfl⟩ : ∃ (r : Fin 16384) (q : Fin 1024), i = ix2 r q := ⟨i 0, i 1, eq_ix2 i⟩
  exact v38_apply x0 x1 x2 x3 x4 x5 x6 x7 x8 x9 x10 x11 x12 x13 x14 x15 x16 x17 x18 r q

/-- The reference's first result is the hidden-state array of its arguments. -/
theorem hidden_eq :
    val_main_v40 (F := Ideal) x0 x1 x2 x3 x4 x5 x6 x7 x8 x9 x10 x11 x12 x13 x14 x15 x16 x17 x18
      = hiddenArr x0 x1 x2 (val_main_v4 (F := Ideal) x3 x7 x11 x15) (val_main_v6 (F := Ideal) x5 x9 x13 x17) (fun n => val_main_v9 (F := Ideal) x4 x6 x8 x10 x12 x14 x16 x18 (ix1 n)) := by
  funext i
  obtain ⟨r, q, rfl⟩ : ∃ (r : Fin 16384) (q : Fin 1024), i = ix2 r q := ⟨i 0, i 1, eq_ix2 i⟩
  exact v40_apply x0 x1 x2 x3 x4 x5 x6 x7 x8 x9 x10 x11 x12 x13 x14 x15 x16 x17 x18 r q

end Cert.ReferenceIdeal.RefValue

end
-- ==== Proof.lean ====
/-
  The certificate of a fused LSTM cell against its jnp reference.

  Both programs stack the four input-path weight matrices by rows and transpose the stack, do the same for the
  four hidden-path matrices, and sum the two stacked bias vectors. The kernel then walks the batch in 64 blocks of
  256 rows; on each block it forms `x · Wᵀ + h · Uᵀ + b` (two products into a zero accumulator, its operands
  rounded to a narrower float format on the way in — the identity at the extended reals), cuts the result into the
  four gates' bands of columns, and stores `c' = σ(f) · c + σ(i) · tanh(g)` and `h' = σ(o) · tanh(c')`. The reference
  does the same on the whole batch at once, spelling `σ t` as `1 / (1 + e^(-t))`, which at the extended reals is the
  function the kernel's one operation denotes. So entry `(r, q)` of each result is, in both programs, the same
  formula of row `r` of the batch, the same stacked weights and the same summed bias: no algebraic law is needed,
  and the inputs' finiteness is never used.

  The three frames: the two kernel programs run the host operations, then the pipeline over the grid, whose body
  loads its windows, computes and stores (Proof/FrameKernel.lean, Proof/FrameKernelIdeal.lean: one text at two float
  instances); the reference is its host operations in order. The idealization rewrote nothing, so it preserves the
  kernel trivially.
-/
import proofs.«122057_j16243566313496_2_alg».proof.Defs
import proofs.«122057_j16243566313496_2_alg».proof.Proof.Gen.Kernel
import proofs.«122057_j16243566313496_2_alg».proof.Proof.Gen.KernelIdeal
import proofs.«122057_j16243566313496_2_alg».proof.Proof.Gen.ReferenceIdeal
import proofs.«122057_j16243566313496_2_alg».proof.Proof.Gen.Pre_finite_inputs
import proofs.«122057_j16243566313496_2_alg».proof.Proof.Gen.ReferenceIdeal.Run
import proofs.«122057_j16243566313496_2_alg».proof.Proof.Gen.ReferenceIdeal.Read
import proofs.«122057_j16243566313496_2_alg».proof.Proof.FrameKernel
import proofs.«122057_j16243566313496_2_alg».proof.Proof.FrameKernelIdeal
import proofs.«122057_j16243566313496_2_alg».proof.Proof.KernelValue
import proofs.«122057_j16243566313496_2_alg».proof.Proof.RefValue

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the new hidden state and the new cell
    state at the cell's formulas of the same arrays. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v40_eq, Cert.ReferenceIdeal.RefValue.hidden_eq, a0, a1, a2, a3, a4, a5, a6, a7, a8, a9, a10, a11, a12, a13, a14, a15, a16, a17, a18]
    rfl
  · obtain ⟨a0, a1, a2, a3, a4, a5, a6, a7, a8, a9, a10, a11, a12, a13, a14, a15, a16, a17, a18⟩ := hagree c
    rw [Cert.ReferenceIdeal.Read.val_main_v38_eq, Cert.ReferenceIdeal.RefValue.cell_eq, a0, a1, a2, a3, a4, a5, a6, a7, a8, a9, a10, a11, a12, a13, a14, a15, a16, a17, a18]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
